-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part4 {F : FTy → Type} [FloatOps F] (main_arg14 : FVec F S2048x2048 .f32) (main_arg15 : FVec F S2048x2048 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  main_v78

def fn_part3 {F : FTy → Type} [FloatOps F] (main_arg11 : FVec F S2048 .f32) (main_arg12 : FVec F S2048x2048 .f32) (main_arg13 : FVec F S2048x2048 .f32) (main_arg14 : FVec F S2048x2048 .f32) (main_arg15 : FVec F S2048x2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_v63 main_v67

def fn_part2 {F : FTy → Type} [FloatOps F] (main_arg7 : FVec F S2048x1024 .f32) (main_arg8 : FVec F S2048 .f32) (main_arg9 : FVec F S2048 .f32) (main_arg10 : FVec F S2048 .f32) (main_arg11 : FVec F S2048 .f32) (main_arg12 : FVec F S2048x2048 .f32) (main_arg13 : FVec F S2048x2048 .f32) (main_arg14 : FVec F S2048x2048 .f32) (main_arg15 : FVec F S2048x2048 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_v48 main_v49 main_v50

def fn_part1 {F : FTy → Type} [FloatOps F] (main_arg4 : FVec F S2048x1024 .f32) (main_arg5 : FVec F S2048x1024 .f32) (main_arg6 : FVec F S2048x1024 .f32) (main_arg7 : FVec F S2048x1024 .f32) (main_arg8 : FVec F S2048 .f32) (main_arg9 : FVec F S2048 .f32) (main_arg10 : FVec F S2048 .f32) (main_arg11 : FVec F S2048 .f32) (main_arg12 : FVec F S2048x2048 .f32) (main_arg13 : FVec F S2048x2048 .f32) (main_arg14 : FVec F S2048x2048 .f32) (main_arg15 : FVec F S2048x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x1024 .f32) (main_arg1 : FVec F S4096x2048 .f32) (main_arg2 : FVec F S4096x2048 .f32) (main_arg3 : FVec F S4096x2048 .f32) (main_arg4 : FVec F S2048x1024 .f32) (main_arg5 : FVec F S2048x1024 .f32) (main_arg6 : FVec F S2048x1024 .f32) (main_arg7 : FVec F S2048x1024 .f32) (main_arg8 : FVec F S2048 .f32) (main_arg9 : FVec F S2048 .f32) (main_arg10 : FVec F S2048 .f32) (main_arg11 : FVec F S2048 .f32) (main_arg12 : FVec F S2048x2048 .f32) (main_arg13 : FVec F S2048x2048 .f32) (main_arg14 : FVec F S2048x2048 .f32) (main_arg15 : FVec F S2048x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S1x2048 : Shape := ⟨2, ![1, 2048]⟩
abbrev S512x1024 : Shape := ⟨2, ![512, 1024]⟩
abbrev S512x2048 : Shape := ⟨2, ![512, 2048]⟩
abbrev S512x256 : Shape := ⟨2, ![512, 256]⟩
abbrev S256x1024 : Shape := ⟨2, ![256, 1024]⟩
abbrev S256x2048 : Shape := ⟨2, ![256, 2048]⟩
abbrev S1x256 : Shape := ⟨2, ![1, 256]⟩

abbrev nBuf : Space → Nat
  | .hbm => 23
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S4096x1024, .bf16⟩
  | .hbm, ⟨17, _⟩ => ⟨S4096x2048, .bf16⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S512x256, .f32⟩
  | .local _ .vmem, ⟨33, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S256x1024_S256x1024_0_0 : ∀ a, (![0, 0] : Fin 2 → Nat) a + S256x1024.size a ≤ S256x1024.size a
  h_S256x1024 : 0 < S256x1024.numel
  inb_S256x2048_S256x2048_0_0 : ∀ a, (![0, 0] : Fin 2 → Nat) a + S256x2048.size a ≤ S256x2048.size a
  h_S256x2048 : 0 < S256x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x1024_S256x1024_S512x256_1_1_0_0_n_n_wf : DotDims.WF S512x1024 S256x1024 S512x256 [1] [1] [0] [0] [] []
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x2048.size a
  hwx0_3 : ∀ i : grid0.Coords, EltTy.bits .f32 = 32 ∨ (Rect.block (s := S4096x2048) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x1024.size a
  hwx0_4 : ∀ i : grid0.Coords, EltTy.bits .f32 = 32 ∨ (Rect.block (s := S2048x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x1024.size a
  hwx0_5 : ∀ i : grid0.Coords, EltTy.bits .f32 = 32 ∨ (Rect.block (s := S2048x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S2048x1024.size a
  hwx0_6 : ∀ i : grid0.Coords, EltTy.bits .f32 = 32 ∨ (Rect.block (s := S2048x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S2048x1024.size a
  hwx0_7 : ∀ i : grid0.Coords, EltTy.bits .f32 = 32 ∨ (Rect.block (s := S2048x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .f32 = 32 ∨ (Rect.block (s := S2048x2048) S256x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .f32 = 32 ∨ (Rect.block (s := S2048x2048) S256x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .f32 = 32 ∨ (Rect.block (s := S2048x2048) S256x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x2048.size a ≤ S2048x2048.size a
  hwx0_11 : ∀ i : grid0.Coords, EltTy.bits .f32 = 32 ∨ (Rect.block (s := S2048x2048) S256x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x2048.size a
  hwx0_15 : ∀ i : grid0.Coords, EltTy.bits .f32 = 32 ∨ (Rect.block (s := S1x2048) S1x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S4096x2048.size a
  hwx0_16 : ∀ i : grid0.Coords, EltTy.bits .f32 = 32 ∨ (Rect.block (s := S4096x2048) S512x256.size (cc0_transform_16 i) (hinb0_16 i)).WholeWords (EltTy.packing .f32)

variable [Facts₀]

def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S256x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S256x2048.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v3) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v4) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v5) S1x256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v6) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S8192x1024 : Shape := ⟨2, ![8192, 1024]⟩
abbrev S8192x2048 : Shape := ⟨2, ![8192, 2048]⟩
abbrev S8192 : Shape := ⟨1, ![8192]⟩
abbrev S1024x8192 : Shape := ⟨2, ![1024, 8192]⟩
abbrev S4096x8192 : Shape := ⟨2, ![4096, 8192]⟩
abbrev S2048x8192 : Shape := ⟨2, ![2048, 8192]⟩
abbrev S1x8192 : Shape := ⟨2, ![1, 8192]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S8192x1024, .f32⟩
  | .hbm, ⟨17, _⟩ => ⟨S8192x2048, .f32⟩
  | .hbm, ⟨18, _⟩ => ⟨S8192, .f32⟩
  | .hbm, ⟨19, _⟩ => ⟨S1024x8192, .f32⟩
  | .hbm, ⟨20, _⟩ => ⟨S4096x8192, .f32⟩
  | .hbm, ⟨21, _⟩ => ⟨S2048x8192, .f32⟩
  | .hbm, ⟨22, _⟩ => ⟨S4096x8192, .f32⟩
  | .hbm, ⟨23, _⟩ => ⟨S4096x8192, .f32⟩
  | .hbm, ⟨24, _⟩ => ⟨S1x8192, .f32⟩
  | .hbm, ⟨25, _⟩ => ⟨S4096x8192, .f32⟩
  | .hbm, ⟨26, _⟩ => ⟨S4096x8192, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  concatenates_S2048x1024_S2048x1024_S2048x1024_S2048x1024_S8192x1024_d0 : Shape.Concatenates [S2048x1024, S2048x1024, S2048x1024, S2048x1024] S8192x1024 0
  concatenates_S2048x2048_S2048x2048_S2048x2048_S2048x2048_S8192x2048_d0 : Shape.Concatenates [S2048x2048, S2048x2048, S2048x2048, S2048x2048] S8192x2048 0
  concatenates_S2048_S2048_S2048_S2048_S8192_d0 : Shape.Concatenates [S2048, S2048, S2048, S2048] S8192 0
  transposes_S8192x1024_S1024x8192_1_0 : S8192x1024.Transposes [1, 0] S1024x8192
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x1024_S1024x8192_S4096x8192_1_0_0_1_n_n_wf : DotDims.WF S4096x1024 S1024x8192 S4096x8192 [1] [0] [0] [1] [] []
  dot_S4096x2048_S2048x8192_S4096x8192_1_0_0_1_n_n_wf : DotDims.WF S4096x2048 S2048x8192 S4096x8192 [1] [0] [0] [1] [] []

variable [Facts₀]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.Spec.lean ====
/-
  One step of an sLSTM cell, stated once on the extended reals.

  For a batch row `p` and a hidden unit `q`, each of the four gates z, i, f, o has the pre-activation
      a(p, q) = (∑ k, x(p, k) · W(q, k) + ∑ k, h(p, k) · R(q, k)) + b(q)
  — the input row against row `q` of the gate's input weights, the previous hidden row against row `q` of its
  recurrent weights, then the bias — and the new hidden value is
      o · (c' / n'),   c' = f · c + i · z,   n' = f · n + i,
      z = tanh a_z,   i = exp a_i,   f = exp a_f,   o = 1 / (1 + exp (−a_o)),
  every operation the exact one on the extended reals (`Ideal.div`, `Ideal.exp`, `Ideal.tanh`, `Ideal.logistic`).
  Both programs of this certificate are shown to compute `hidden` below: nothing here mentions a program.
-/
import Idealize.ShloMosaic.PureOps.Ideal
import Idealize.ShloMosaic.PureOps.Ideal.Laws
import Idealize.ShloMosaic.PureOps.IdealRules
import Idealize.ShloMosaic.Lib.ValueIdx

noncomputable section

namespace Cert.SLstm

open Idealize.ShloMosaic Idealize.ShloMosaic.ValueIdx

/-- A matrix of extended reals with `a` rows and `b` columns, indexed the way the programs' rank-2 arrays are. -/
abbrev Mat (a b : Nat) : Type := (⟨2, ![a, b]⟩ : Shape).Idx → EReal

/-- A vector of extended reals of length `a`, indexed the way the programs' rank-1 arrays are. -/
abbrev Vect (a : Nat) : Type := (⟨1, ![a]⟩ : Shape).Idx → EReal

/-- The two matrix products of a gate at row `p` and unit `q`, before the bias: `x`'s row `p` against `W`'s row `q`
    (1024 terms) plus `h`'s row `p` against `R`'s row `q` (2048 terms). Generic in the number of rows `B` and of units
    `H`: the same sum is read off a tile of the arrays and off the whole arrays. -/
def gateDot {B H : Nat} (x : Mat B 1024) (h : Mat B 2048) (W : Mat H 1024) (R : Mat H 2048) (p : Fin B) (q : Fin H) : EReal :=
  ∑ k : Fin 1024, x (ix2 p k) * W (ix2 q k) + ∑ k : Fin 2048, h (ix2 p k) * R (ix2 q k)

/-- The state update of one cell from its four pre-activations and the previous cell and normalizer states. -/
def cell (az ai af ao c n : EReal) : EReal :=
  Ideal.logistic ao * Ideal.div (Ideal.exp af * c + Ideal.exp ai * Ideal.tanh az) (Ideal.exp af * n + Ideal.exp ai)

/-- The new hidden value at batch row `p` and hidden unit `q`, from the sixteen argument arrays. -/
def hiddenAt (x : Mat 4096 1024) (h c n : Mat 4096 2048) (Wz Wi Wf Wo : Mat 2048 1024) (bz bi bf bo : Vect 2048)
    (Rz Ri Rf Ro : Mat 2048 2048) (p : Fin 4096) (q : Fin 2048) : EReal :=
  cell (gateDot x h Wz Rz p q + bz (ix1 q)) (gateDot x h Wi Ri p q + bi (ix1 q)) (gateDot x h Wf Rf p q + bf (ix1 q))
    (gateDot x h Wo Ro p q + bo (ix1 q)) (c (ix2 p q)) (n (ix2 p q))

/-- The new hidden state as one array: `hiddenAt` at every index. -/
def hidden (x : Mat 4096 1024) (h c n : Mat 4096 2048) (Wz Wi Wf Wo : Mat 2048 1024) (bz bi bf bo : Vect 2048)
    (Rz Ri Rf Ro : Mat 2048 2048) : Mat 4096 2048 :=
  fun j => hiddenAt x h c n Wz Wi Wf Wo bz bi bf bo Rz Ri Rf Ro (j 0) (j 1)

theorem hidden_apply (x : Mat 4096 1024) (h c n : Mat 4096 2048) (Wz Wi Wf Wo : Mat 2048 1024) (bz bi bf bo : Vect 2048)
    (Rz Ri Rf Ro : Mat 2048 2048) (p : Fin 4096) (q : Fin 2048) :
    hidden x h c n Wz Wi Wf Wo bz bi bf bo Rz Ri Rf Ro (ix2 p q) = hiddenAt x h c n Wz Wi Wf Wo bz bi bf bo Rz Ri Rf Ro p q := rfl

/-- The f32 word of `1.0` is the extended real `1`. -/
theorem ofBits_one_f32 : Ideal.ofBits .f32 0x3F800000#32 = 1 := IdealRules.sign_bit.ideal_onePat .f32

/-- The logistic function spelt out with the exact quotient, as a host program writes `1 / (1 + exp (−a))`: it is the
    library's `Ideal.logistic` by definition, at every extended real. -/
theorem logistic_spelt (a : EReal) : Ideal.div 1 (1 + Ideal.exp (-a)) = Ideal.logistic a := rfl

end Cert.SLstm

end
-- ==== Proof.LibStack4.lean ====
/-
  Four arrays of one shape laid one after another along axis 0, read at an index.

  A host program that fuses four gates stacks their weight matrices (each of 2048 rows) into one matrix of 8192 rows, and
  their bias vectors (each of length 2048) into one vector of length 8192. Row `2048 · g + q` of the stack is row `q` of
  piece `g`; entry `2048 · g + q` of the stacked vector is entry `q` of piece `g`. The number of columns is generic.
-/
import Idealize.ShloMosaic.Lib.Pipeline.Value
import Idealize.ShloMosaic.Lib.ValueIdx

noncomputable section

namespace Cert.Stack4

open Idealize.ShloMosaic Idealize.ShloMosaic.ValueIdx

/-- One of four things, chosen by a number below four. -/
def pick {α : Type} (g : Fin 4) (a0 a1 a2 a3 : α) : α :=
  match g with
  | 0 => a0
  | 1 => a1
  | 2 => a2
  | 3 => a3

@[simp] theorem pick_zero {α : Type} (a0 a1 a2 a3 : α) : pick 0 a0 a1 a2 a3 = a0 := rfl
@[simp] theorem pick_one {α : Type} (a0 a1 a2 a3 : α) : pick 1 a0 a1 a2 a3 = a1 := rfl
@[simp] theorem pick_two {α : Type} (a0 a1 a2 a3 : α) : pick 2 a0 a1 a2 a3 = a2 := rfl
@[simp] theorem pick_three {α : Type} (a0 a1 a2 a3 : α) : pick 3 a0 a1 a2 a3 = a3 := rfl

/-- Four arrays of one shape as the list of pieces a concatenation takes. -/
abbrev pieces {α : Type} (s : Shape) (a0 a1 a2 a3 : s.Idx → α) : List ((s : Shape) × (s.Idx → α)) :=
  [⟨s, a0⟩, ⟨s, a1⟩, ⟨s, a2⟩, ⟨s, a3⟩]

/-- Row `r = 2048 · g + q` of four stacked matrices of 2048 rows is row `q` of the `g`-th matrix. -/
theorem rows_apply {α : Type} {n : Nat} (a0 a1 a2 a3 : (⟨2, ![2048, n]⟩ : Shape).Idx → α)
    (hc : Shape.Concatenates ((pieces ⟨2, ![2048, n]⟩ a0 a1 a2 a3).map (·.1)) ⟨2, ![8192, n]⟩ 0)
    (g : Fin 4) (q : Fin 2048) (k : Fin n) (r : Fin 8192) (hr : r.val = 2048 * g.val + q.val) :
    concatenate ⟨2, ![8192, n]⟩ 0 (pieces ⟨2, ![2048, n]⟩ a0 a1 a2 a3) hc (ix2 r k)
      = pick g a0 a1 a2 a3 (ix2 q k) := by
  have off : ∀ b : Fin 2, b.cast rfl ≠ (0 : Fin 2) → ((ix2 q k : (⟨2, ![2048, n]⟩ : Shape).Idx) b).val = ((ix2 r k : (⟨2, ![8192, n]⟩ : Shape).Idx) (b.cast rfl)).val :=
    fun b hb => match b with
      | ⟨0, _⟩ => absurd rfl hb
      | ⟨1, _⟩ => rfl
  match g with
  | 0 =>
    have h0 : r.val = 2048 * 0 + q.val := hr
    exact concatenate_apply_piece 0 (pieces ⟨2, ![2048, n]⟩ a0 a1 a2 a3) hc (ix2 r k) 0 (by show (0 : Nat) < 4; omega) ⟨2, ![2048, n]⟩ a0 rfl rfl 0 rfl (ix2 q k) off
      (by show 0 + q.val = r.val; omega)
  | 1 =>
    have h1 : r.val = 2048 * 1 + q.val := hr
    exact concatenate_apply_piece 0 (pieces ⟨2, ![2048, n]⟩ a0 a1 a2 a3) hc (ix2 r k) 1 (by show (1 : Nat) < 4; omega) ⟨2, ![2048, n]⟩ a1 rfl rfl 2048 rfl (ix2 q k) off
      (by show 2048 + q.val = r.val; omega)
  | 2 =>
    have h2 : r.val = 2048 * 2 + q.val := hr
    exact concatenate_apply_piece 0 (pieces ⟨2, ![2048, n]⟩ a0 a1 a2 a3) hc (ix2 r k) 2 (by show (2 : Nat) < 4; omega) ⟨2, ![2048, n]⟩ a2 rfl rfl 4096 rfl (ix2 q k) off
      (by show 4096 + q.val = r.val; omega)
  | 3 =>
    have h3 : r.val = 2048 * 3 + q.val := hr
    exact concatenate_apply_piece 0 (pieces ⟨2, ![2048, n]⟩ a0 a1 a2 a3) hc (ix2 r k) 3 (by show (3 : Nat) < 4; omega) ⟨2, ![2048, n]⟩ a3 rfl rfl 6144 rfl (ix2 q k) off
      (by show 6144 + q.val = r.val; omega)

/-- Entry `r = 2048 · g + q` of four stacked vectors of length 2048 is entry `q` of the `g`-th vector. -/
theorem vec_apply {α : Type} (b0 b1 b2 b3 : (⟨1, ![2048]⟩ : Shape).Idx → α)
    (hc : Shape.Concatenates ((pieces ⟨1, ![2048]⟩ b0 b1 b2 b3).map (·.1)) ⟨1, ![8192]⟩ 0)
    (g : Fin 4) (q : Fin 2048) (r : Fin 8192) (hr : r.val = 2048 * g.val + q.val) :
    concatenate ⟨1, ![8192]⟩ 0 (pieces ⟨1, ![2048]⟩ b0 b1 b2 b3) hc (ix1 r)
      = pick g b0 b1 b2 b3 (ix1 q) := by
  have off : ∀ b : Fin 1, b.cast rfl ≠ (0 : Fin 1) → ((ix1 q : (⟨1, ![2048]⟩ : Shape).Idx) b).val = ((ix1 r : (⟨1, ![8192]⟩ : Shape).Idx) (b.cast rfl)).val :=
    fun b hb => match b with
      | ⟨0, _⟩ => absurd rfl hb
  match g with
  | 0 =>
    have h0 : r.val = 2048 * 0 + q.val := hr
    exact concatenate_apply_piece 0 (pieces ⟨1, ![2048]⟩ b0 b1 b2 b3) hc (ix1 r) 0 (by show (0 : Nat) < 4; omega) ⟨1, ![2048]⟩ b0 rfl rfl 0 rfl (ix1 q) off
      (by show 0 + q.val = r.val; omega)
  | 1 =>
    have h1 : r.val = 2048 * 1 + q.val := hr
    exact concatenate_apply_piece 0 (pieces ⟨1, ![2048]⟩ b0 b1 b2 b3) hc (ix1 r) 1 (by show (1 : Nat) < 4; omega) ⟨1, ![2048]⟩ b1 rfl rfl 2048 rfl (ix1 q) off
      (by show 2048 + q.val = r.val; omega)
  | 2 =>
    have h2 : r.val = 2048 * 2 + q.val := hr
    exact concatenate_apply_piece 0 (pieces ⟨1, ![2048]⟩ b0 b1 b2 b3) hc (ix1 r) 2 (by show (2 : Nat) < 4; omega) ⟨1, ![2048]⟩ b2 rfl rfl 4096 rfl (ix1 q) off
      (by show 4096 + q.val = r.val; omega)
  | 3 =>
    have h3 : r.val = 2048 * 3 + q.val := hr
    exact concatenate_apply_piece 0 (pieces ⟨1, ![2048]⟩ b0 b1 b2 b3) hc (ix1 r) 3 (by show (3 : Nat) < 4; omega) ⟨1, ![2048]⟩ b3 rfl rfl 6144 rfl (ix1 q) off
      (by show 6144 + q.val = r.val; omega)

end Cert.Stack4

end
-- ==== Proof.RefSpec.lean ====
/-
  The reference program computes the cell step of Spec.lean.

  The reference fuses the four gates: it stacks the four input-weight matrices into one of 8192 rows, the four recurrent
  matrices likewise and the four biases into one vector of length 8192, forms ONE pre-activation matrix
      pre(p, c) = (∑ k, x(p, k) · Wcat(c, k) + ∑ k, h(p, k) · Rcat(c, k)) + bcat(c)        (4096 × 8192)
  and cuts it into four column bands of width 2048. Column `2048 · g + q` of `pre` only meets row `2048 · g + q` of the
  stacks, which is row `q` of gate `g`'s own matrices (LibStack4.lean): so band `g` at `(p, q)` IS gate `g`'s
  pre-activation (`fused_pre`). The rest of the reference is the cell update entry by entry, with the output gate written
  `1 / (1 + exp (−a))`, which is the logistic function by definition (`reference_eq`).
-/
import proofs.«109156_j54047868453103_2_alg».proof.Proof.Gen.ReferenceIdeal.Read
import proofs.«109156_j54047868453103_2_alg».proof.Proof.Spec
import proofs.«109156_j54047868453103_2_alg».proof.Proof.LibStack4

noncomputable section

namespace Cert.SLstm.Ref

open Cert.ReferenceIdeal Cert.ReferenceIdeal.Gen Cert.ReferenceIdeal.Read
open Idealize.ShloMosaic Idealize.ShloMosaic.ValueIdx Cert.SLstm Cert.Stack4

/-- Column `2048 · g + q` of the fused pre-activation matrix: unit `q` of gate `g`. -/
def col (g : Fin 4) (q : Fin 2048) : Fin 8192 :=
  ⟨2048 * g.val + q.val, by have := q.isLt; have := g.isLt; omega⟩

/-- The fused pre-activation at row `p` and column `c = 2048 · g + q` is gate `g`'s pre-activation at `(p, q)`: the two
    products only meet row `c` of the stacked weights and the bias entry `c` of the stacked biases, which are gate `g`'s
    row `q` and entry `q`. -/
theorem fused_pre (x0 : (⟨S4096x1024, .f32⟩ : BufTy).Contents (Elt Ideal)) (x1 : (⟨S4096x2048, .f32⟩ : BufTy).Contents (Elt Ideal))
    (x4 x5 x6 x7 : (⟨S2048x1024, .f32⟩ : BufTy).Contents (Elt Ideal)) (x8 x9 x10 x11 : (⟨S2048, .f32⟩ : BufTy).Contents (Elt Ideal))
    (x12 x13 x14 x15 : (⟨S2048x2048, .f32⟩ : BufTy).Contents (Elt Ideal))
    (g : Fin 4) (p : Fin 4096) (q : Fin 2048) (c : Fin 8192) (hc : c.val = 2048 * g.val + q.val) :
    val_main_v10 (F := Ideal) x0 x1 x4 x5 x6 x7 x8 x9 x10 x11 x12 x13 x14 x15 (ix2 p c)
      = gateDot x0 x1 (pick g x4 x5 x6 x7) (pick g x12 x13 x14 x15) p q + pick g x8 x9 x10 x11 (ix1 q) := by
  rw [val_main_v10_apply, val_main_v7_apply, val_main_v4_apply, val_main_v6_apply, val_main_v9_apply, val_main_v8_apply]
  unfold gateDot
  refine congrArg₂ (· + ·) (congrArg₂ (· + ·) (Finset.sum_congr rfl fun k _ => ?_) (Finset.sum_congr rfl fun k _ => ?_)) ?_
  · rw [val_main_v3_apply]
    have e1 : lidx_main_v4 (ix2 p c) k = ix2 p k := funext fun a => Fin.ext (by match a with | ⟨0, _⟩ => rfl | ⟨1, _⟩ => rfl)
    have e2 : idx_main_v3 (ridx_main_v4 (ix2 p c) k) = ix2 c k := funext fun a => Fin.ext (by match a with | ⟨0, _⟩ => rfl | ⟨1, _⟩ => rfl)
    rw [e1, e2]
    exact congrArg (x0 (ix2 p k) * ·) (rows_apply x4 x5 x6 x7 concatenates_S2048x1024_S2048x1024_S2048x1024_S2048x1024_S8192x1024_d0 g q k c hc)
  · rw [val_main_v5_apply]
    have e1 : lidx_main_v6 (ix2 p c) k = ix2 p k := funext fun a => Fin.ext (by match a with | ⟨0, _⟩ => rfl | ⟨1, _⟩ => rfl)
    have e2 : idx_main_v5 (ridx_main_v6 (ix2 p c) k) = ix2 c k := funext fun a => Fin.ext (by match a with | ⟨0, _⟩ => rfl | ⟨1, _⟩ => rfl)
    rw [e1, e2]
    exact congrArg (x1 (ix2 p k) * ·) (rows_apply x12 x13 x14 x15 concatenates_S2048x2048_S2048x2048_S2048x2048_S2048x2048_S8192x2048_d0 g q k c hc)
  · have e : idx_main_v8 (idx_main_v9 (ix2 p c)) = ix1 c := funext fun a => Fin.ext (by match a with | ⟨0, _⟩ => rfl)
    rw [e]
    exact vec_apply x8 x9 x10 x11 concatenates_S2048_S2048_S2048_S2048_S8192_d0 g q c hc

/-- The reference's result, as a function of the sixteen argument arrays, is the new hidden state of Spec.lean. -/
theorem reference_eq (x0 : (⟨S4096x1024, .f32⟩ : BufTy).Contents (Elt Ideal)) (x1 x2 x3 : (⟨S4096x2048, .f32⟩ : BufTy).Contents (Elt Ideal))
    (x4 x5 x6 x7 : (⟨S2048x1024, .f32⟩ : BufTy).Contents (Elt Ideal)) (x8 x9 x10 x11 : (⟨S2048, .f32⟩ : BufTy).Contents (Elt Ideal))
    (x12 x13 x14 x15 : (⟨S2048x2048, .f32⟩ : BufTy).Contents (Elt Ideal)) :
    val_main_v30 (F := Ideal) x0 x1 x2 x3 x4 x5 x6 x7 x8 x9 x10 x11 x12 x13 x14 x15
      = hidden x0 x1 x2 x3 x4 x5 x6 x7 x8 x9 x10 x11 x12 x13 x14 x15 := by
  funext j
  obtain ⟨p, q, rfl⟩ : ∃ (p : Fin 4096) (q : Fin 2048), j = ix2 p q := ⟨j 0, j 1, eq_ix2 j⟩
  rw [hidden_apply]
  rw [val_main_v30_apply, val_main_v23_apply, val_main_v29_apply, val_main_v22_apply, val_main_cst_0_apply, val_main_v21_apply,
    val_main_v20_apply, val_main_cst_apply, val_main_v19_apply, val_main_v18_apply, val_main_v14_apply, val_main_v26_apply,
    val_main_v28_apply, val_main_v24_apply, val_main_v25_apply, val_main_v27_apply, val_main_v17_apply, val_main_v16_apply,
    val_main_v15_apply, val_main_v13_apply, val_main_v12_apply, val_main_v11_apply]
  have i0 : idx_main_v11 (ix2 p q) = ix2 p (col 0 q) := funext fun a => Fin.ext (by
    match a with
    | ⟨0, _⟩ => rfl
    | ⟨1, _⟩ => show q.val = 2048 * 0 + q.val; omega)
  have i1 : idx_main_v12 (ix2 p q) = ix2 p (col 1 q) := funext fun a => Fin.ext (by
    match a with
    | ⟨0, _⟩ => rfl
    | ⟨1, _⟩ => show 2048 + q.val = 2048 * 1 + q.val; omega)
  have i2 : idx_main_v13 (ix2 p q) = ix2 p (col 2 q) := funext fun a => Fin.ext (by
    match a with
    | ⟨0, _⟩ => rfl
    | ⟨1, _⟩ => show 4096 + q.val = 2048 * 2 + q.val; omega)
  have i3 : idx_main_v14 (ix2 p q) = ix2 p (col 3 q) := funext fun a => Fin.ext (by
    match a with
    | ⟨0, _⟩ => rfl
    | ⟨1, _⟩ => show 6144 + q.val = 2048 * 3 + q.val; omega)
  rw [i0, i1, i2, i3, fused_pre x0 x1 x4 x5 x6 x7 x8 x9 x10 x11 x12 x13 x14 x15 0 p q (col 0 q) rfl, fused_pre x0 x1 x4 x5 x6 x7 x8 x9 x10 x11 x12 x13 x14 x15 1 p q (col 1 q) rfl,
    fused_pre x0 x1 x4 x5 x6 x7 x8 x9 x10 x11 x12 x13 x14 x15 2 p q (col 2 q) rfl, fused_pre x0 x1 x4 x5 x6 x7 x8 x9 x10 x11 x12 x13 x14 x15 3 p q (col 3 q) rfl]
  unfold hiddenAt cell
  simp only [pick_zero, pick_one, pick_two, pick_three, Ideal.mulf_def, Ideal.addf_def, Ideal.hostDivf_def, Ideal.hostUnary_exp_def,
    Ideal.hostUnary_tanh_def, Ideal.hostNegf_def, Ideal.negf_def, Ideal.ofBits_def, ofBits_one_f32, logistic_spelt]

end Cert.SLstm.Ref

end
-- ==== Proof.KernelTile.lean ====
/-
  What the kernel body stores, read at one entry of a tile.

  At a grid point the body holds a tile of 512 batch rows of `x` and `h`, the matching 512 × 256 tiles of the cell and
  normalizer states, and for each gate 256 rows of its input weights, 256 rows of its recurrent weights and 256 bias
  entries (as one row). Per gate it forms  x · Wᵀ  and  h · Rᵀ  by two matrix products into zero accumulators (both
  contract the SECOND axis of both operands, so entry `(p, q)` pairs row `p` with row `q`), adds them, then adds the
  bias row to every row. On the extended reals a change of float format is the identity, a product into zeros is a plain
  sum, and the body's last lines are the cell update of Spec.lean with the logistic function for the output gate: so the
  stored tile at `(p, q)` is `cell` of the four pre-activations `gateDot … p q + b (0, q)` (`tile_apply`).
-/
import proofs.«109156_j54047868453103_2_alg».proof.Proof.Gen.KernelIdeal.Frame
import proofs.«109156_j54047868453103_2_alg».proof.Proof.Spec
import Idealize.ShloMosaic.Lib.Pipeline.Value
import Idealize.ShloMosaic.Lib.ValueIdx
import Idealize.ShloMosaic.PureOps.Ideal.Laws

noncomputable section

namespace Cert.SLstm.Tile

open Cert.KernelIdeal Cert.KernelIdeal.Gen
open Idealize.ShloMosaic Idealize.ShloMosaic.ValueIdx Cert.SLstm

theorem hz : (![0, 0] : Fin 2 → Nat) = fun _ => 0 := funext fun a => by fin_cases a <;> rfl

/-! ## The two matrix products at an entry -/

theorem lhsx_0 (i : S512x256.Idx) (c : dot_S512x1024_S256x1024_S512x256_1_1_0_0_n_n.contr.Idx) : (dot_S512x1024_S256x1024_S512x256_1_1_0_0_n_n.lhsIdx i c 0).val = (i 0).val := by
  unfold DotDims.lhsIdx
  rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
  rfl
theorem lhsx_1 (i : S512x256.Idx) (c : dot_S512x1024_S256x1024_S512x256_1_1_0_0_n_n.contr.Idx) : (dot_S512x1024_S256x1024_S512x256_1_1_0_0_n_n.lhsIdx i c 1).val = (c ⟨0, by decide⟩).val :=
  dot_S512x1024_S256x1024_S512x256_1_1_0_0_n_n.lhsIdx_val_of_single rfl i c
theorem rhsx_0 (i : S512x256.Idx) (c : dot_S512x1024_S256x1024_S512x256_1_1_0_0_n_n.contr.Idx) : (dot_S512x1024_S256x1024_S512x256_1_1_0_0_n_n.rhsIdx i c 0).val = (i 1).val := by
  unfold DotDims.rhsIdx
  rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
  rfl
theorem rhsx_1 (i : S512x256.Idx) (c : dot_S512x1024_S256x1024_S512x256_1_1_0_0_n_n.contr.Idx) : (dot_S512x1024_S256x1024_S512x256_1_1_0_0_n_n.rhsIdx i c 1).val = (c ⟨0, by decide⟩).val :=
  dot_S512x1024_S256x1024_S512x256_1_1_0_0_n_n.rhsIdx_val_of_single rfl i c

/-- The tile product into a zero accumulator, contracted over the second axis of BOTH operands: at `(p, q)` it is
    the sum over `k` of the left operand's row `p` against the right operand's row `q`. -/
theorem dotx_apply (x : FVec Ideal S512x1024 .bf16) (w : FVec Ideal S256x1024 .bf16) (p : Fin 512) (q : Fin 256) :
    matmul dot_S512x1024_S256x1024_S512x256_1_1_0_0_n_n none x w (constant S512x256 .f32 0x00000000#32) (ix2 p q) = ∑ k : Fin 1024, x (ix2 p k) * w (ix2 q k) := by
  simp only [matmul]
  rw [Ideal.matmul_constant_zero_apply, ← Equiv.sum_comp (ValueIdx.contrEquiv1 dot_S512x1024_S256x1024_S512x256_1_1_0_0_n_n 1024 rfl rfl).symm]
  refine Finset.sum_congr rfl fun k _ => ?_
  have hk := ValueIdx.contrEquiv1_symm_val dot_S512x1024_S256x1024_S512x256_1_1_0_0_n_n 1024 rfl rfl k
  have el : dot_S512x1024_S256x1024_S512x256_1_1_0_0_n_n.lhsIdx (ix2 p q) ((ValueIdx.contrEquiv1 dot_S512x1024_S256x1024_S512x256_1_1_0_0_n_n 1024 rfl rfl).symm k) = ix2 p k := funext fun a => Fin.ext (by
    match a with
    | ⟨0, _⟩ => exact lhsx_0 _ _
    | ⟨1, _⟩ => exact (lhsx_1 _ _).trans hk)
  have er : dot_S512x1024_S256x1024_S512x256_1_1_0_0_n_n.rhsIdx (ix2 p q) ((ValueIdx.contrEquiv1 dot_S512x1024_S256x1024_S512x256_1_1_0_0_n_n 1024 rfl rfl).symm k) = ix2 q k := funext fun a => Fin.ext (by
    match a with
    | ⟨0, _⟩ => exact rhsx_0 _ _
    | ⟨1, _⟩ => exact (rhsx_1 _ _).trans hk)
  rw [el, er]

theorem lhsh_0 (i : S512x256.Idx) (c : dot_S512x2048_S256x2048_S512x256_1_1_0_0_n_n.contr.Idx) : (dot_S512x2048_S256x2048_S512x256_1_1_0_0_n_n.lhsIdx i c 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhsh_1 (i : S512x256.Idx) (c : dot_S512x2048_S256x2048_S512x256_1_1_0_0_n_n.contr.Idx) : (dot_S512x2048_S256x2048_S512x256_1_1_0_0_n_n.lhsIdx i c 1).val = (c ⟨0, by decide⟩).val :=
  dot_S512x2048_S256x2048_S512x256_1_1_0_0_n_n.lhsIdx_val_of_single rfl i c
theorem rhsh_0 (i : S512x256.Idx) (c : dot_S512x2048_S256x2048_S512x256_1_1_0_0_n_n.contr.Idx) : (dot_S512x2048_S256x2048_S512x256_1_1_0_0_n_n.rhsIdx i c 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhsh_1 (i : S512x256.Idx) (c : dot_S512x2048_S256x2048_S512x256_1_1_0_0_n_n.contr.Idx) : (dot_S512x2048_S256x2048_S512x256_1_1_0_0_n_n.rhsIdx i c 1).val = (c ⟨0, by decide⟩).val :=
  dot_S512x2048_S256x2048_S512x256_1_1_0_0_n_n.rhsIdx_val_of_single rfl i c

/-- The tile product into a zero accumulator, contracted over the second axis of BOTH operands: at `(p, q)` it is
    the sum over `k` of the left operand's row `p` against the right operand's row `q`. -/
theorem doth_apply (x : FVec Ideal S512x2048 .bf16) (w : FVec Ideal S256x2048 .bf16) (p : Fin 512) (q : Fin 256) :
    matmul dot_S512x2048_S256x2048_S512x256_1_1_0_0_n_n none x w (constant S512x256 .f32 0x00000000#32) (ix2 p q) = ∑ k : Fin 2048, x (ix2 p k) * w (ix2 q k) := by
  simp only [matmul]
  rw [Ideal.matmul_constant_zero_apply, ← Equiv.sum_comp (ValueIdx.contrEquiv1 dot_S512x2048_S256x2048_S512x256_1_1_0_0_n_n 2048 rfl rfl).symm]
  refine Finset.sum_congr rfl fun k _ => ?_
  have hk := ValueIdx.contrEquiv1_symm_val dot_S512x2048_S256x2048_S512x256_1_1_0_0_n_n 2048 rfl rfl k
  have el : dot_S512x2048_S256x2048_S512x256_1_1_0_0_n_n.lhsIdx (ix2 p q) ((ValueIdx.contrEquiv1 dot_S512x2048_S256x2048_S512x256_1_1_0_0_n_n 2048 rfl rfl).symm k) = ix2 p k := funext fun a => Fin.ext (by
    match a with
    | ⟨0, _⟩ => exact lhsh_0 _ _
    | ⟨1, _⟩ => exact (lhsh_1 _ _).trans hk)
  have er : dot_S512x2048_S256x2048_S512x256_1_1_0_0_n_n.rhsIdx (ix2 p q) ((ValueIdx.contrEquiv1 dot_S512x2048_S256x2048_S512x256_1_1_0_0_n_n 2048 rfl rfl).symm k) = ix2 q k := funext fun a => Fin.ext (by
    match a with
    | ⟨0, _⟩ => exact rhsh_0 _ _
    | ⟨1, _⟩ => exact (rhsh_1 _ _).trans hk)
  rw [el, er]

/-! ## The bias row spread over the rows -/

/-- A bias tile `[1, 256]` (cast to its own shape, then spread over 512 rows) read at `(p, q)` is its entry `(0, q)`. -/
theorem bias_apply (b : FVec Ideal S1x256 .f32) (h1 : S1x256.ShapeCasts S1x256) (h2 : S1x256.Broadcasts S512x256)
    (p : Fin 512) (q : Fin 256) :
    broadcastTo S512x256 (shapeCast S1x256 b h1) h2 (ix2 p q) = b (ix2 (0 : Fin 1) q) := by
  rw [shapeCast_self]
  exact broadcastTo_apply b h2 (ix2 p q) (ix2 (0 : Fin 1) q) (fun a => by
    match a with
    | ⟨0, _⟩ => show (0 : Nat) = if (1 : Nat) = 1 then 0 else _; rw [if_pos rfl]
    | ⟨1, _⟩ => show q.val = if (256 : Nat) = 1 then 0 else _; rw [if_neg (by decide)]; rfl)

/-! ## One gate's pre-activation on a tile -/

/-- The body's spelling of a gate's pre-activation, read at `(p, q)`: the two row-against-row sums plus the bias entry. -/
theorem gate_apply (x : FVec Ideal S512x1024 .bf16) (h : FVec Ideal S512x2048 .bf16) (w : FVec Ideal S256x1024 .bf16)
    (r : FVec Ideal S256x2048 .bf16) (b : FVec Ideal S1x256 .f32) (h1 : S1x256.ShapeCasts S1x256)
    (h2 : S1x256.Broadcasts S512x256) (p : Fin 512) (q : Fin 256) :
    (addf (addf (matmul dot_S512x1024_S256x1024_S512x256_1_1_0_0_n_n none x w (constant S512x256 .f32 0x00000000#32)) (matmul dot_S512x2048_S256x2048_S512x256_1_1_0_0_n_n none h r (constant S512x256 .f32 0x00000000#32))) (broadcastTo S512x256 (shapeCast S1x256 b h1) h2)) (ix2 p q)
      = gateDot x h w r p q + b (ix2 (0 : Fin 1) q) := by
  rw [addf_apply, addf_apply, dotx_apply, doth_apply, bias_apply]
  rfl

/-- The pre-activation of the first gate as the body computes it (format changes and identity casts included). -/
theorem pay4_apply (v0 : Vec Ideal S512x1024 .bf16) (v2 : Vec Ideal S512x2048 .bf16) (v6 : Vec Ideal S256x1024 .f32)
    (v8 : Vec Ideal S256x2048 .f32) (v13 : Vec Ideal S1x256 .f32) (p : Fin 512) (q : Fin 256) :
    k0_pay4 (F := Ideal) v0 v2 v6 v8 v13 (ix2 p q) = gateDot v0 v2 v6 v8 p q + v13 (ix2 (0 : Fin 1) q) := by
  refine (gate_apply (shapeCast S512x1024 v0 shapeCasts_S512x1024_S512x1024) (shapeCast S512x2048 v2 shapeCasts_S512x2048_S512x2048)
    (truncf .bf16 v6 bitsLt_bf16_f32) (truncf .bf16 v8 bitsLt_bf16_f32) v13 shapeCasts_S1x256_S1x256 broadcasts_S1x256_S512x256 p q).trans ?_
  rw [shapeCast_self, shapeCast_self]
  rfl

/-- The pre-activation of the second gate as the body computes it. -/
theorem pay5_apply (v0 : Vec Ideal S512x1024 .bf16) (v2 : Vec Ideal S512x2048 .bf16) (v17 : Vec Ideal S256x1024 .f32)
    (v19 : Vec Ideal S256x2048 .f32) (v24 : Vec Ideal S1x256 .f32) (p : Fin 512) (q : Fin 256) :
    k0_pay5 (F := Ideal) v0 v2 v17 v19 v24 (ix2 p q) = gateDot v0 v2 v17 v19 p q + v24 (ix2 (0 : Fin 1) q) := by
  refine (gate_apply (shapeCast S512x1024 v0 shapeCasts_S512x1024_S512x1024) (shapeCast S512x2048 v2 shapeCasts_S512x2048_S512x2048)
    (truncf .bf16 v17 bitsLt_bf16_f32) (truncf .bf16 v19 bitsLt_bf16_f32) v24 shapeCasts_S1x256_S1x256 broadcasts_S1x256_S512x256 p q).trans ?_
  rw [shapeCast_self, shapeCast_self]
  rfl

/-! ## The stored value -/

/-- The body's last payload: from the first two gates' pre-activations `v16`, `v27` and the loaded tiles of the other two
    gates, the stored value at `(p, q)` is the cell update. -/
theorem pay1_apply (v1 : FVec Ideal S512x1024 .bf16) (v3 : FVec Ideal S512x2048 .bf16) (v4 v5 : Vec Ideal S512x256 .f32)
    (v16 v27 : FVec Ideal S512x256 .f32) (v29 : FVec Ideal S256x1024 .bf16) (v30 : Vec Ideal S256x2048 .f32)
    (v35 : Vec Ideal S1x256 .f32) (v39 : Vec Ideal S256x1024 .f32) (v41 : Vec Ideal S256x2048 .f32) (v46 : Vec Ideal S1x256 .f32)
    (p : Fin 512) (q : Fin 256) :
    k0_pay1 (F := Ideal) v1 v3 v4 v5 v16 v27 v29 v30 v35 v39 v41 v46 (ix2 p q)
      = cell (v16 (ix2 p q)) (v27 (ix2 p q)) (gateDot v1 v3 v29 v30 p q + v35 (ix2 (0 : Fin 1) q))
          (gateDot v1 v3 v39 v41 p q + v46 (ix2 (0 : Fin 1) q)) (v4 (ix2 p q)) (v5 (ix2 p q)) := by
  have hf := gate_apply v1 v3 v29 (truncf .bf16 v30 bitsLt_bf16_f32) v35 shapeCasts_S1x256_S1x256 broadcasts_S1x256_S512x256 p q
  have ho := gate_apply v1 v3 (truncf .bf16 v39 bitsLt_bf16_f32) (truncf .bf16 v41 bitsLt_bf16_f32) v46 shapeCasts_S1x256_S1x256 broadcasts_S1x256_S512x256 p q
  have hf' : gateDot v1 v3 v29 v30 p q + v35 (ix2 (0 : Fin 1) q) = _ := hf.symm
  have ho' : gateDot v1 v3 v39 v41 p q + v46 (ix2 (0 : Fin 1) q) = _ := ho.symm
  rw [hf', ho']
  rfl

/-- THE STORED TILE at `(p, q)`: the cell update of the four gates' pre-activations on this tile. -/
theorem tile_apply (x0 : Vec Ideal S512x1024 .bf16) (x1 : Vec Ideal S512x2048 .bf16) (x2 x3 : Vec Ideal S512x256 .f32)
    (x4 x5 x6 x7 : Vec Ideal S256x1024 .f32) (x8 x9 x10 x11 : Vec Ideal S256x2048 .f32) (x12 x13 x14 x15 : Vec Ideal S1x256 .f32)
    (p : Fin 512) (q : Fin 256) :
    out0_16 (F := Ideal) x0 x1 x2 x3 x4 x5 x6 x7 x8 x9 x10 x11 x12 x13 x14 x15 (ix2 p q)
      = cell (gateDot x0 x1 x4 x8 p q + x12 (ix2 (0 : Fin 1) q)) (gateDot x0 x1 x5 x9 p q + x13 (ix2 (0 : Fin 1) q))
          (gateDot x0 x1 x6 x10 p q + x14 (ix2 (0 : Fin 1) q)) (gateDot x0 x1 x7 x11 p q + x15 (ix2 (0 : Fin 1) q))
          (x2 (ix2 p q)) (x3 (ix2 p q)) := by
  unfold out0_16
  rw [View.canon_unit_zero hz]
  simp only [View.ld_unit_zero (S := S512x1024) hz, View.ld_unit_zero (S := S512x2048) hz, View.ld_unit_zero (S := S512x256) hz,
    View.ld_unit_zero (S := S256x1024) hz, View.ld_unit_zero (S := S256x2048) hz, View.ld_unit_zero (S := S1x256) hz]
  refine (pay1_apply (k0_pay2 x0) (k0_pay3 x1) x2 x3 (k0_pay4 x0 x1 x4 x8 x12) (k0_pay5 x0 x1 x5 x9 x13) (k0_pay6 x6) x10 x14 x7 x11 x15 p q).trans ?_
  rw [pay4_apply, pay5_apply]
  have e2 : k0_pay2 (F := Ideal) x0 = x0 := shapeCast_self x0 _
  have e3 : k0_pay3 (F := Ideal) x1 = x1 := shapeCast_self x1 _
  rw [e2, e3]
  rfl

end Cert.SLstm.Tile

end
-- ==== Proof.KernelArray.lean ====
/-
  From tiles to the whole array: the kernel's result array is the new hidden state of Spec.lean.

  The grid has 8 × 8 points (h, b): point (h, b) works on batch rows 512·b … 512·b + 511 and hidden units
  256·h … 256·h + 255. Its windows are: rows 512·b… of `x` and of `h_prev` (all columns); the (b, h) tile of the cell and
  normalizer states; rows 256·h… of each gate's input and recurrent weights (all columns); entries 256·h… of each bias
  (as a row); and it writes the (b, h) tile of the result. Before the region the host only changes the float format of
  `x` and `h_prev` (the identity on the extended reals) and views each bias vector as one row.
  So entry (p, q) of the tile written at point (h, b) is `cell` of sums that only read row P = 512·b + p of `x`, `h_prev`
  and row / entry Q = 256·h + q of the weights and biases: it is `hiddenAt … P Q` (`written_tile`). The 64 tiles are
  disjoint and fill the 4096 × 2048 array (row P lies in the tile with b = P / 512, unit Q in the one with h = Q / 256), so
  the array ends as `hidden` of the sixteen arguments (`final`), and the run of the program says so (`run`).
-/
import proofs.«109156_j54047868453103_2_alg».proof.Proof.Gen.KernelIdeal.Value
import proofs.«109156_j54047868453103_2_alg».proof.Proof.KernelTile
import proofs.«109156_j54047868453103_2_alg».proof.Proof.Spec
import Idealize.ShloMosaic.Lib.Pipeline.Value
import Idealize.ShloMosaic.Lib.ValueIdx
import Idealize.ShloMosaic.Lib.StableHlo.Run

noncomputable section

namespace Cert.SLstm.Kernel

open Cert.KernelIdeal Cert.KernelIdeal.Gen Idealize.ShloMosaic Idealize.ShloMosaic.TcCoe Idealize.SL.Sem
open Idealize.ShloMosaic.ValueIdx Idealize.ShloMosaic.StableHlo Cert.SLstm Cert.SLstm.Tile
open Idealize.ShloMosaic.Pipeline (Dat)

variable (m : (ℓ : Loc nD τ sig) → Buf (Elt Ideal) ℓ) (ρ : Dev nD → PrngReg)

/-- The new hidden state of the arguments as launched: what the result array is shown to hold. -/
def result (c : Dev nD) : Buf (Elt Ideal) ((c : Thread nD τ).loc main_v6) :=
  hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-! ## Pure congruences of the specification -/

theorem gateDot_congr {B H B' H' : Nat} (x : Mat B 1024) (h : Mat B 2048) (W : Mat H 1024) (R : Mat H 2048)
    (x' : Mat B' 1024) (h' : Mat B' 2048) (W' : Mat H' 1024) (R' : Mat H' 2048) (p : Fin B) (q : Fin H) (p' : Fin B') (q' : Fin H')
    (hx : ∀ k : Fin 1024, x (ix2 p k) = x' (ix2 p' k)) (hh : ∀ k : Fin 2048, h (ix2 p k) = h' (ix2 p' k))
    (hW : ∀ k : Fin 1024, W (ix2 q k) = W' (ix2 q' k)) (hR : ∀ k : Fin 2048, R (ix2 q k) = R' (ix2 q' k)) :
    gateDot x h W R p q = gateDot x' h' W' R' p' q' := by
  unfold gateDot
  exact congrArg₂ (· + ·) (Finset.sum_congr rfl fun k _ => by rw [hx k, hW k]) (Finset.sum_congr rfl fun k _ => by rw [hh k, hR k])

theorem cell_congr {a1 a2 a3 a4 a5 a6 b1 b2 b3 b4 b5 b6 : EReal} (h1 : a1 = b1) (h2 : a2 = b2) (h3 : a3 = b3) (h4 : a4 = b4)
    (h5 : a5 = b5) (h6 : a6 = b6) : cell a1 a2 a3 a4 a5 a6 = cell b1 b2 b3 b4 b5 b6 := by
  rw [h1, h2, h3, h4, h5, h6]

/-! ## The arrays the region finds: the host operations before it -/

/-- `x` in the narrower float format is `x` itself on the extended reals. -/
theorem V_v0 (c : Dev nD) : (V m c main_v0 : S4096x1024.Idx → EReal) = ((m ((c : Thread nD τ).loc main_arg0)) : S4096x1024.Idx → EReal) := by
  dsimp only [V, hostOps0]; after_results; rfl

/-- `h_prev` likewise. -/
theorem V_v1 (c : Dev nD) : (V m c main_v1 : S4096x2048.Idx → EReal) = ((m ((c : Thread nD τ).loc main_arg1)) : S4096x2048.Idx → EReal) := by
  dsimp only [V, hostOps0]; after_results; rfl

/-- The bias vector of argument 8 viewed as one row. -/
theorem V_v2 (c : Dev nD) : (V m c main_v2 : S1x2048.Idx → EReal)
    = shapeCast S1x2048 ((m ((c : Thread nD τ).loc main_arg8)) : S2048.Idx → EReal) shapeCasts_S2048_S1x2048 := by
  dsimp only [V, hostOps0]; after_results; rfl

/-- The bias vector of argument 9 viewed as one row. -/
theorem V_v3 (c : Dev nD) : (V m c main_v3 : S1x2048.Idx → EReal)
    = shapeCast S1x2048 ((m ((c : Thread nD τ).loc main_arg9)) : S2048.Idx → EReal) shapeCasts_S2048_S1x2048 := by
  dsimp only [V, hostOps0]; after_results; rfl

/-- The bias vector of argument 10 viewed as one row. -/
theorem V_v4 (c : Dev nD) : (V m c main_v4 : S1x2048.Idx → EReal)
    = shapeCast S1x2048 ((m ((c : Thread nD τ).loc main_arg10)) : S2048.Idx → EReal) shapeCasts_S2048_S1x2048 := by
  dsimp only [V, hostOps0]; after_results; rfl

/-- The bias vector of argument 11 viewed as one row. -/
theorem V_v5 (c : Dev nD) : (V m c main_v5 : S1x2048.Idx → EReal)
    = shapeCast S1x2048 ((m ((c : Thread nD τ).loc main_arg11)) : S2048.Idx → EReal) shapeCasts_S2048_S1x2048 := by
  dsimp only [V, hostOps0]; after_results; rfl

/-! ## The index maps, decided once over the 64 grid points -/

/-- The windows of `x` and `h_prev` follow the result tile's row block and take every column. -/
theorem idx_rows : ∀ t : Fin cfg0.N, win0_0.index t (0 : Fin 2) = win0_16.index t (0 : Fin 2) ∧ win0_0.index t (1 : Fin 2) = 0
    ∧ win0_1.index t (0 : Fin 2) = win0_16.index t (0 : Fin 2) ∧ win0_1.index t (1 : Fin 2) = 0 :=
  (by decide +kernel : ∀ t : Fin grid0.N, _)

/-- The windows of the cell and normalizer states are the result's own tile. -/
theorem idx_state : ∀ t : Fin cfg0.N, win0_2.index t (0 : Fin 2) = win0_16.index t (0 : Fin 2) ∧ win0_2.index t (1 : Fin 2) = win0_16.index t (1 : Fin 2)
    ∧ win0_3.index t (0 : Fin 2) = win0_16.index t (0 : Fin 2) ∧ win0_3.index t (1 : Fin 2) = win0_16.index t (1 : Fin 2) :=
  (by decide +kernel : ∀ t : Fin grid0.N, _)

/-- The windows of the eight weight matrices take the rows of the result tile's unit block, and every column. -/
theorem idx_weights : ∀ t : Fin cfg0.N,
    win0_4.index t (0 : Fin 2) = win0_16.index t (1 : Fin 2) ∧ win0_4.index t (1 : Fin 2) = 0
    ∧ win0_5.index t (0 : Fin 2) = win0_16.index t (1 : Fin 2) ∧ win0_5.index t (1 : Fin 2) = 0
    ∧ win0_6.index t (0 : Fin 2) = win0_16.index t (1 : Fin 2) ∧ win0_6.index t (1 : Fin 2) = 0
    ∧ win0_7.index t (0 : Fin 2) = win0_16.index t (1 : Fin 2) ∧ win0_7.index t (1 : Fin 2) = 0
    ∧ win0_8.index t (0 : Fin 2) = win0_16.index t (1 : Fin 2) ∧ win0_8.index t (1 : Fin 2) = 0
    ∧ win0_9.index t (0 : Fin 2) = win0_16.index t (1 : Fin 2) ∧ win0_9.index t (1 : Fin 2) = 0
    ∧ win0_10.index t (0 : Fin 2) = win0_16.index t (1 : Fin 2) ∧ win0_10.index t (1 : Fin 2) = 0
    ∧ win0_11.index t (0 : Fin 2) = win0_16.index t (1 : Fin 2) ∧ win0_11.index t (1 : Fin 2) = 0 :=
  (by decide +kernel : ∀ t : Fin grid0.N, _)

/-- The windows of the four bias rows take the entries of the result tile's unit block. -/
theorem idx_bias : ∀ t : Fin cfg0.N,
    win0_12.index t (0 : Fin 2) = 0 ∧ win0_12.index t (1 : Fin 2) = win0_16.index t (1 : Fin 2)
    ∧ win0_13.index t (0 : Fin 2) = 0 ∧ win0_13.index t (1 : Fin 2) = win0_16.index t (1 : Fin 2)
    ∧ win0_14.index t (0 : Fin 2) = 0 ∧ win0_14.index t (1 : Fin 2) = win0_16.index t (1 : Fin 2)
    ∧ win0_15.index t (0 : Fin 2) = 0 ∧ win0_15.index t (1 : Fin 2) = win0_16.index t (1 : Fin 2) :=
  (by decide +kernel : ∀ t : Fin grid0.N, _)

/-- The result tile's block indices stay below 8 on both axes. -/
theorem idx_bound : ∀ t : Fin cfg0.N, win0_16.index t (0 : Fin 2) ≤ 7 ∧ win0_16.index t (1 : Fin 2) ≤ 7 :=
  (by decide +kernel : ∀ t : Fin grid0.N, _)

/-- Every pair of block indices below 8 is some point's. -/
theorem idx_onto : ∀ (q0 : Fin 8) (q1 : Fin 8), ∃ t : Fin cfg0.N, win0_16.index t = ![q0.val, q1.val] :=
  (by decide +kernel : ∀ (q0 : Fin 8) (q1 : Fin 8), ∃ t : Fin grid0.N, win0_16.index t = ![q0.val, q1.val])

/-! ## Each window's tile read where the result tile's entry says -/

/-- Row `p` of point `t`'s tile of argument 0 is row `P = 512 · (row block) + p` of the argument. -/
theorem read0 (c : Dev nD) (t : Fin cfg0.N) (p : Fin 512) (k : Fin 1024) (P : Fin 4096)
    (hP : P.val = win0_16.index t (0 : Fin 2) * 512 + p.val) :
    (iblk m c 0 t : Vec Ideal S512x1024 .bf16) (ix2 p k) = ((m ((c : Thread nD τ).loc main_arg0)) : S4096x1024.Idx → EReal) (ix2 P k) := by
  obtain ⟨e0, e1, e2, e3⟩ := idx_rows t
  show (V m c main_v0 : S4096x1024.Idx → EReal) (((cfg0.win 0).blk t).view.emb (ix2 p k)) = _
  rw [V_v0 m c]
  refine congrArg _ (funext fun a => Fin.ext ?_)
  match a with
  | ⟨0, _⟩ => show win0_0.index t (0 : Fin 2) * 512 + 1 * p.val = P.val; omega
  | ⟨1, _⟩ => show win0_0.index t (1 : Fin 2) * 1024 + 1 * k.val = k.val; omega

/-- Row `p` of point `t`'s tile of argument 1 is row `P = 512 · (row block) + p` of the argument. -/
theorem read1 (c : Dev nD) (t : Fin cfg0.N) (p : Fin 512) (k : Fin 2048) (P : Fin 4096)
    (hP : P.val = win0_16.index t (0 : Fin 2) * 512 + p.val) :
    (iblk m c 1 t : Vec Ideal S512x2048 .bf16) (ix2 p k) = ((m ((c : Thread nD τ).loc main_arg1)) : S4096x2048.Idx → EReal) (ix2 P k) := by
  obtain ⟨e0, e1, e2, e3⟩ := idx_rows t
  show (V m c main_v1 : S4096x2048.Idx → EReal) (((cfg0.win 1).blk t).view.emb (ix2 p k)) = _
  rw [V_v1 m c]
  refine congrArg _ (funext fun a => Fin.ext ?_)
  match a with
  | ⟨0, _⟩ => show win0_1.index t (0 : Fin 2) * 512 + 1 * p.val = P.val; omega
  | ⟨1, _⟩ => show win0_1.index t (1 : Fin 2) * 2048 + 1 * k.val = k.val; omega

/-- Entry `(p, q)` of point `t`'s tile of argument 2 is entry `(P, Q)` of the argument. -/
theorem read2 (c : Dev nD) (t : Fin cfg0.N) (p : Fin 512) (q : Fin 256) (P : Fin 4096) (Q : Fin 2048)
    (hP : P.val = win0_16.index t (0 : Fin 2) * 512 + p.val) (hQ : Q.val = win0_16.index t (1 : Fin 2) * 256 + q.val) :
    (iblk m c 2 t : Vec Ideal S512x256 .f32) (ix2 p q) = ((m ((c : Thread nD τ).loc main_arg2)) : S4096x2048.Idx → EReal) (ix2 P Q) := by
  obtain ⟨e0, e1, e2, e3⟩ := idx_state t
  show (V m c main_arg2 : S4096x2048.Idx → EReal) (((cfg0.win 2).blk t).view.emb (ix2 p q)) = _
  rw [V_main_arg2 m c]
  refine congrArg _ (funext fun a => Fin.ext ?_)
  match a with
  | ⟨0, _⟩ => show win0_2.index t (0 : Fin 2) * 512 + 1 * p.val = P.val; omega
  | ⟨1, _⟩ => show win0_2.index t (1 : Fin 2) * 256 + 1 * q.val = Q.val; omega

/-- Entry `(p, q)` of point `t`'s tile of argument 3 is entry `(P, Q)` of the argument. -/
theorem read3 (c : Dev nD) (t : Fin cfg0.N) (p : Fin 512) (q : Fin 256) (P : Fin 4096) (Q : Fin 2048)
    (hP : P.val = win0_16.index t (0 : Fin 2) * 512 + p.val) (hQ : Q.val = win0_16.index t (1 : Fin 2) * 256 + q.val) :
    (iblk m c 3 t : Vec Ideal S512x256 .f32) (ix2 p q) = ((m ((c : Thread nD τ).loc main_arg3)) : S4096x2048.Idx → EReal) (ix2 P Q) := by
  obtain ⟨e0, e1, e2, e3⟩ := idx_state t
  show (V m c main_arg3 : S4096x2048.Idx → EReal) (((cfg0.win 3).blk t).view.emb (ix2 p q)) = _
  rw [V_main_arg3 m c]
  refine congrArg _ (funext fun a => Fin.ext ?_)
  match a with
  | ⟨0, _⟩ => show win0_3.index t (0 : Fin 2) * 512 + 1 * p.val = P.val; omega
  | ⟨1, _⟩ => show win0_3.index t (1 : Fin 2) * 256 + 1 * q.val = Q.val; omega

/-- Row `q` of point `t`'s tile of the weight matrix of argument 4 is row `Q = 256 · (unit block) + q` of the matrix. -/
theorem read4 (c : Dev nD) (t : Fin cfg0.N) (q : Fin 256) (k : Fin 1024) (Q : Fin 2048)
    (hQ : Q.val = win0_16.index t (1 : Fin 2) * 256 + q.val) :
    (iblk m c 4 t : Vec Ideal S256x1024 .f32) (ix2 q k) = ((m ((c : Thread nD τ).loc main_arg4)) : S2048x1024.Idx → EReal) (ix2 Q k) := by
  obtain ⟨e0, e1, e2, e3, e4, e5, e6, e7, e8, e9, e10, e11, e12, e13, e14, e15⟩ := idx_weights t
  show (V m c main_arg4 : S2048x1024.Idx → EReal) (((cfg0.win 4).blk t).view.emb (ix2 q k)) = _
  rw [V_main_arg4 m c]
  refine congrArg _ (funext fun a => Fin.ext ?_)
  match a with
  | ⟨0, _⟩ => show win0_4.index t (0 : Fin 2) * 256 + 1 * q.val = Q.val; omega
  | ⟨1, _⟩ => show win0_4.index t (1 : Fin 2) * 1024 + 1 * k.val = k.val; omega

/-- Row `q` of point `t`'s tile of the weight matrix of argument 5 is row `Q = 256 · (unit block) + q` of the matrix. -/
theorem read5 (c : Dev nD) (t : Fin cfg0.N) (q : Fin 256) (k : Fin 1024) (Q : Fin 2048)
    (hQ : Q.val = win0_16.index t (1 : Fin 2) * 256 + q.val) :
    (iblk m c 5 t : Vec Ideal S256x1024 .f32) (ix2 q k) = ((m ((c : Thread nD τ).loc main_arg5)) : S2048x1024.Idx → EReal) (ix2 Q k) := by
  obtain ⟨e0, e1, e2, e3, e4, e5, e6, e7, e8, e9, e10, e11, e12, e13, e14, e15⟩ := idx_weights t
  show (V m c main_arg5 : S2048x1024.Idx → EReal) (((cfg0.win 5).blk t).view.emb (ix2 q k)) = _
  rw [V_main_arg5 m c]
  refine congrArg _ (funext fun a => Fin.ext ?_)
  match a with
  | ⟨0, _⟩ => show win0_5.index t (0 : Fin 2) * 256 + 1 * q.val = Q.val; omega
  | ⟨1, _⟩ => show win0_5.index t (1 : Fin 2) * 1024 + 1 * k.val = k.val; omega

/-- Row `q` of point `t`'s tile of the weight matrix of argument 6 is row `Q = 256 · (unit block) + q` of the matrix. -/
theorem read6 (c : Dev nD) (t : Fin cfg0.N) (q : Fin 256) (k : Fin 1024) (Q : Fin 2048)
    (hQ : Q.val = win0_16.index t (1 : Fin 2) * 256 + q.val) :
    (iblk m c 6 t : Vec Ideal S256x1024 .f32) (ix2 q k) = ((m ((c : Thread nD τ).loc main_arg6)) : S2048x1024.Idx → EReal) (ix2 Q k) := by
  obtain ⟨e0, e1, e2, e3, e4, e5, e6, e7, e8, e9, e10, e11, e12, e13, e14, e15⟩ := idx_weights t
  show (V m c main_arg6 : S2048x1024.Idx → EReal) (((cfg0.win 6).blk t).view.emb (ix2 q k)) = _
  rw [V_main_arg6 m c]
  refine congrArg _ (funext fun a => Fin.ext ?_)
  match a with
  | ⟨0, _⟩ => show win0_6.index t (0 : Fin 2) * 256 + 1 * q.val = Q.val; omega
  | ⟨1, _⟩ => show win0_6.index t (1 : Fin 2) * 1024 + 1 * k.val = k.val; omega

/-- Row `q` of point `t`'s tile of the weight matrix of argument 7 is row `Q = 256 · (unit block) + q` of the matrix. -/
theorem read7 (c : Dev nD) (t : Fin cfg0.N) (q : Fin 256) (k : Fin 1024) (Q : Fin 2048)
    (hQ : Q.val = win0_16.index t (1 : Fin 2) * 256 + q.val) :
    (iblk m c 7 t : Vec Ideal S256x1024 .f32) (ix2 q k) = ((m ((c : Thread nD τ).loc main_arg7)) : S2048x1024.Idx → EReal) (ix2 Q k) := by
  obtain ⟨e0, e1, e2, e3, e4, e5, e6, e7, e8, e9, e10, e11, e12, e13, e14, e15⟩ := idx_weights t
  show (V m c main_arg7 : S2048x1024.Idx → EReal) (((cfg0.win 7).blk t).view.emb (ix2 q k)) = _
  rw [V_main_arg7 m c]
  refine congrArg _ (funext fun a => Fin.ext ?_)
  match a with
  | ⟨0, _⟩ => show win0_7.index t (0 : Fin 2) * 256 + 1 * q.val = Q.val; omega
  | ⟨1, _⟩ => show win0_7.index t (1 : Fin 2) * 1024 + 1 * k.val = k.val; omega

/-- Row `q` of point `t`'s tile of the weight matrix of argument 12 is row `Q = 256 · (unit block) + q` of the matrix. -/
theorem read8 (c : Dev nD) (t : Fin cfg0.N) (q : Fin 256) (k : Fin 2048) (Q : Fin 2048)
    (hQ : Q.val = win0_16.index t (1 : Fin 2) * 256 + q.val) :
    (iblk m c 8 t : Vec Ideal S256x2048 .f32) (ix2 q k) = ((m ((c : Thread nD τ).loc main_arg12)) : S2048x2048.Idx → EReal) (ix2 Q k) := by
  obtain ⟨e0, e1, e2, e3, e4, e5, e6, e7, e8, e9, e10, e11, e12, e13, e14, e15⟩ := idx_weights t
  show (V m c main_arg12 : S2048x2048.Idx → EReal) (((cfg0.win 8).blk t).view.emb (ix2 q k)) = _
  rw [V_main_arg12 m c]
  refine congrArg _ (funext fun a => Fin.ext ?_)
  match a with
  | ⟨0, _⟩ => show win0_8.index t (0 : Fin 2) * 256 + 1 * q.val = Q.val; omega
  | ⟨1, _⟩ => show win0_8.index t (1 : Fin 2) * 2048 + 1 * k.val = k.val; omega

/-- Row `q` of point `t`'s tile of the weight matrix of argument 13 is row `Q = 256 · (unit block) + q` of the matrix. -/
theorem read9 (c : Dev nD) (t : Fin cfg0.N) (q : Fin 256) (k : Fin 2048) (Q : Fin 2048)
    (hQ : Q.val = win0_16.index t (1 : Fin 2) * 256 + q.val) :
    (iblk m c 9 t : Vec Ideal S256x2048 .f32) (ix2 q k) = ((m ((c : Thread nD τ).loc main_arg13)) : S2048x2048.Idx → EReal) (ix2 Q k) := by
  obtain ⟨e0, e1, e2, e3, e4, e5, e6, e7, e8, e9, e10, e11, e12, e13, e14, e15⟩ := idx_weights t
  show (V m c main_arg13 : S2048x2048.Idx → EReal) (((cfg0.win 9).blk t).view.emb (ix2 q k)) = _
  rw [V_main_arg13 m c]
  refine congrArg _ (funext fun a => Fin.ext ?_)
  match a with
  | ⟨0, _⟩ => show win0_9.index t (0 : Fin 2) * 256 + 1 * q.val = Q.val; omega
  | ⟨1, _⟩ => show win0_9.index t (1 : Fin 2) * 2048 + 1 * k.val = k.val; omega

/-- Row `q` of point `t`'s tile of the weight matrix of argument 14 is row `Q = 256 · (unit block) + q` of the matrix. -/
theorem read10 (c : Dev nD) (t : Fin cfg0.N) (q : Fin 256) (k : Fin 2048) (Q : Fin 2048)
    (hQ : Q.val = win0_16.index t (1 : Fin 2) * 256 + q.val) :
    (iblk m c 10 t : Vec Ideal S256x2048 .f32) (ix2 q k) = ((m ((c : Thread nD τ).loc main_arg14)) : S2048x2048.Idx → EReal) (ix2 Q k) := by
  obtain ⟨e0, e1, e2, e3, e4, e5, e6, e7, e8, e9, e10, e11, e12, e13, e14, e15⟩ := idx_weights t
  show (V m c main_arg14 : S2048x2048.Idx → EReal) (((cfg0.win 10).blk t).view.emb (ix2 q k)) = _
  rw [V_main_arg14 m c]
  refine congrArg _ (funext fun a => Fin.ext ?_)
  match a with
  | ⟨0, _⟩ => show win0_10.index t (0 : Fin 2) * 256 + 1 * q.val = Q.val; omega
  | ⟨1, _⟩ => show win0_10.index t (1 : Fin 2) * 2048 + 1 * k.val = k.val; omega

/-- Row `q` of point `t`'s tile of the weight matrix of argument 15 is row `Q = 256 · (unit block) + q` of the matrix. -/
theorem read11 (c : Dev nD) (t : Fin cfg0.N) (q : Fin 256) (k : Fin 2048) (Q : Fin 2048)
    (hQ : Q.val = win0_16.index t (1 : Fin 2) * 256 + q.val) :
    (iblk m c 11 t : Vec Ideal S256x2048 .f32) (ix2 q k) = ((m ((c : Thread nD τ).loc main_arg15)) : S2048x2048.Idx → EReal) (ix2 Q k) := by
  obtain ⟨e0, e1, e2, e3, e4, e5, e6, e7, e8, e9, e10, e11, e12, e13, e14, e15⟩ := idx_weights t
  show (V m c main_arg15 : S2048x2048.Idx → EReal) (((cfg0.win 11).blk t).view.emb (ix2 q k)) = _
  rw [V_main_arg15 m c]
  refine congrArg _ (funext fun a => Fin.ext ?_)
  match a with
  | ⟨0, _⟩ => show win0_11.index t (0 : Fin 2) * 256 + 1 * q.val = Q.val; omega
  | ⟨1, _⟩ => show win0_11.index t (1 : Fin 2) * 2048 + 1 * k.val = k.val; omega

/-- Entry `q` of point `t`'s tile of the bias row of argument 8 is entry `Q = 256 · (unit block) + q` of the bias. -/
theorem read12 (c : Dev nD) (t : Fin cfg0.N) (q : Fin 256) (Q : Fin 2048)
    (hQ : Q.val = win0_16.index t (1 : Fin 2) * 256 + q.val) :
    (iblk m c 12 t : Vec Ideal S1x256 .f32) (ix2 (0 : Fin 1) q) = ((m ((c : Thread nD τ).loc main_arg8)) : S2048.Idx → EReal) (ix1 Q) := by
  obtain ⟨e0, e1, e2, e3, e4, e5, e6, e7⟩ := idx_bias t
  show (V m c main_v2 : S1x2048.Idx → EReal) (((cfg0.win 12).blk t).view.emb (ix2 (0 : Fin 1) q)) = _
  rw [V_v2 m c]
  refine (shapeCast_addUnit_apply ![2048] _ _ _).trans ?_
  refine congrArg _ (funext fun a => Fin.ext ?_)
  match a with
  | ⟨0, _⟩ => show win0_12.index t (1 : Fin 2) * 256 + 1 * q.val = Q.val; omega

/-- Entry `q` of point `t`'s tile of the bias row of argument 9 is entry `Q = 256 · (unit block) + q` of the bias. -/
theorem read13 (c : Dev nD) (t : Fin cfg0.N) (q : Fin 256) (Q : Fin 2048)
    (hQ : Q.val = win0_16.index t (1 : Fin 2) * 256 + q.val) :
    (iblk m c 13 t : Vec Ideal S1x256 .f32) (ix2 (0 : Fin 1) q) = ((m ((c : Thread nD τ).loc main_arg9)) : S2048.Idx → EReal) (ix1 Q) := by
  obtain ⟨e0, e1, e2, e3, e4, e5, e6, e7⟩ := idx_bias t
  show (V m c main_v3 : S1x2048.Idx → EReal) (((cfg0.win 13).blk t).view.emb (ix2 (0 : Fin 1) q)) = _
  rw [V_v3 m c]
  refine (shapeCast_addUnit_apply ![2048] _ _ _).trans ?_
  refine congrArg _ (funext fun a => Fin.ext ?_)
  match a with
  | ⟨0, _⟩ => show win0_13.index t (1 : Fin 2) * 256 + 1 * q.val = Q.val; omega

/-- Entry `q` of point `t`'s tile of the bias row of argument 10 is entry `Q = 256 · (unit block) + q` of the bias. -/
theorem read14 (c : Dev nD) (t : Fin cfg0.N) (q : Fin 256) (Q : Fin 2048)
    (hQ : Q.val = win0_16.index t (1 : Fin 2) * 256 + q.val) :
    (iblk m c 14 t : Vec Ideal S1x256 .f32) (ix2 (0 : Fin 1) q) = ((m ((c : Thread nD τ).loc main_arg10)) : S2048.Idx → EReal) (ix1 Q) := by
  obtain ⟨e0, e1, e2, e3, e4, e5, e6, e7⟩ := idx_bias t
  show (V m c main_v4 : S1x2048.Idx → EReal) (((cfg0.win 14).blk t).view.emb (ix2 (0 : Fin 1) q)) = _
  rw [V_v4 m c]
  refine (shapeCast_addUnit_apply ![2048] _ _ _).trans ?_
  refine congrArg _ (funext fun a => Fin.ext ?_)
  match a with
  | ⟨0, _⟩ => show win0_14.index t (1 : Fin 2) * 256 + 1 * q.val = Q.val; omega

/-- Entry `q` of point `t`'s tile of the bias row of argument 11 is entry `Q = 256 · (unit block) + q` of the bias. -/
theorem read15 (c : Dev nD) (t : Fin cfg0.N) (q : Fin 256) (Q : Fin 2048)
    (hQ : Q.val = win0_16.index t (1 : Fin 2) * 256 + q.val) :
    (iblk m c 15 t : Vec Ideal S1x256 .f32) (ix2 (0 : Fin 1) q) = ((m ((c : Thread nD τ).loc main_arg11)) : S2048.Idx → EReal) (ix1 Q) := by
  obtain ⟨e0, e1, e2, e3, e4, e5, e6, e7⟩ := idx_bias t
  show (V m c main_v5 : S1x2048.Idx → EReal) (((cfg0.win 15).blk t).view.emb (ix2 (0 : Fin 1) q)) = _
  rw [V_v5 m c]
  refine (shapeCast_addUnit_apply ![2048] _ _ _).trans ?_
  refine congrArg _ (funext fun a => Fin.ext ?_)
  match a with
  | ⟨0, _⟩ => show win0_15.index t (1 : Fin 2) * 256 + 1 * q.val = Q.val; omega

/-! ## What a point writes back -/

/-- WHAT POINT `t` WRITES BACK is its tile of the new hidden state of the arguments. -/
theorem written_tile (c : Dev nD) (t : Fin cfg0.N) :
    (dats m 0 c).flushed 16 t = ((cfg0.win 16).blk t).view.read (Elt Ideal) (result m c) := by
  rw [Cert.KernelIdeal.Value.flushed16]
  obtain ⟨b0, b1⟩ := idx_bound t
  funext y
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = result m c (((cfg0.win 16).blk t).view.emb y)
  obtain ⟨p, q, rfl⟩ : ∃ (p : Fin 512) (q : Fin 256), y = ix2 p q := ⟨y 0, y 1, eq_ix2 y⟩
  have hp : p.val < 512 := p.isLt
  have hq : q.val < 256 := q.isLt
  let P : Fin 4096 := ⟨win0_16.index t (0 : Fin 2) * 512 + p.val, by omega⟩
  let Q : Fin 2048 := ⟨win0_16.index t (1 : Fin 2) * 256 + q.val, by omega⟩
  have hemb : ((cfg0.win 16).blk t).view.emb (ix2 p q) = (ix2 P Q : S4096x2048.Idx) := funext fun a => Fin.ext (by
    match a with
    | ⟨0, _⟩ => show win0_16.index t (0 : Fin 2) * 512 + 1 * p.val = win0_16.index t (0 : Fin 2) * 512 + p.val; omega
    | ⟨1, _⟩ => show win0_16.index t (1 : Fin 2) * 256 + 1 * q.val = win0_16.index t (1 : Fin 2) * 256 + q.val; omega)
  rw [hemb, tile_apply]
  unfold result
  rw [hidden_apply]
  unfold hiddenAt
  exact cell_congr
    (congrArg₂ (· + ·)
      (gateDot_congr (B := 512) (H := 256) (B' := 4096) (H' := 2048) (iblk m c 0 t) (iblk m c 1 t) (iblk m c 4 t) (iblk m c 8 t)
        (m ((c : Thread nD τ).loc main_arg0)) (m ((c : Thread nD τ).loc main_arg1)) (m ((c : Thread nD τ).loc main_arg4)) (m ((c : Thread nD τ).loc main_arg12)) p q P Q
        (fun k => read0 m c t p k P rfl) (fun k => read1 m c t p k P rfl) (fun k => read4 m c t q k Q rfl) (fun k => read8 m c t q k Q rfl))
      (read12 m c t q Q rfl))
    (congrArg₂ (· + ·)
      (gateDot_congr (B := 512) (H := 256) (B' := 4096) (H' := 2048) (iblk m c 0 t) (iblk m c 1 t) (iblk m c 5 t) (iblk m c 9 t)
        (m ((c : Thread nD τ).loc main_arg0)) (m ((c : Thread nD τ).loc main_arg1)) (m ((c : Thread nD τ).loc main_arg5)) (m ((c : Thread nD τ).loc main_arg13)) p q P Q
        (fun k => read0 m c t p k P rfl) (fun k => read1 m c t p k P rfl) (fun k => read5 m c t q k Q rfl) (fun k => read9 m c t q k Q rfl))
      (read13 m c t q Q rfl))
    (congrArg₂ (· + ·)
      (gateDot_congr (B := 512) (H := 256) (B' := 4096) (H' := 2048) (iblk m c 0 t) (iblk m c 1 t) (iblk m c 6 t) (iblk m c 10 t)
        (m ((c : Thread nD τ).loc main_arg0)) (m ((c : Thread nD τ).loc main_arg1)) (m ((c : Thread nD τ).loc main_arg6)) (m ((c : Thread nD τ).loc main_arg14)) p q P Q
        (fun k => read0 m c t p k P rfl) (fun k => read1 m c t p k P rfl) (fun k => read6 m c t q k Q rfl) (fun k => read10 m c t q k Q rfl))
      (read14 m c t q Q rfl))
    (congrArg₂ (· + ·)
      (gateDot_congr (B := 512) (H := 256) (B' := 4096) (H' := 2048) (iblk m c 0 t) (iblk m c 1 t) (iblk m c 7 t) (iblk m c 11 t)
        (m ((c : Thread nD τ).loc main_arg0)) (m ((c : Thread nD τ).loc main_arg1)) (m ((c : Thread nD τ).loc main_arg7)) (m ((c : Thread nD τ).loc main_arg15)) p q P Q
        (fun k => read0 m c t p k P rfl) (fun k => read1 m c t p k P rfl) (fun k => read7 m c t q k Q rfl) (fun k => read11 m c t q k Q rfl))
      (read15 m c t q Q rfl))
    (read2 m c t p q P Q rfl rfl) (read3 m c t p q P Q rfl rfl)

/-! ## The 64 tiles fill the array -/

/-- An index of the result array is in point `t`'s tile iff each coordinate is in the tile's range on its axis. -/
theorem mem_tile (t : Fin cfg0.N) (i : S4096x2048.Idx) :
    i ∈ ((cfg0.win 16).blk t).view.set ↔ ∀ a : Fin 2, win0_16.index t a * S512x256.size a ≤ (i a).val ∧ (i a).val < win0_16.index t a * S512x256.size a + S512x256.size a := by
  show i ∈ ((View.whole main_v6).slice (win0_16.rect t)).set ↔ _
  rw [View.set_slice_whole, Rect.mem_set_unit]
  exact Iff.rfl

/-- Every index of the result array lies in the tile of the point with row block `i₀ / 512` and unit block `i₁ / 256`. -/
theorem tiles_cover (i : S4096x2048.Idx) : ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  refine ⟨t, flush0_16 t, ?_⟩
  rw [mem_tile]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 256 ≤ (i 1).val ∧ (i 1).val < win0_16.index t (1 : Fin 2) * 256 + 256; omega

/-- THE RESULT ARRAY after the run is the new hidden state of the arguments. -/
theorem final (c : Dev nD) : (dats m 0 c).arrAt 16 cfg0.N = result m c :=
  (dats m 0 c).arrAt_eq_of_cover 16 (result m c) (fun t _ => written_tile m c t) tiles_cover

/-! ## The run, read -/

/-- Every weakly fair execution of the kernel's program ends with the result array at the new hidden state of the
    arguments and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Cert.KernelIdeal.Value.run_blocks m ρ)

end Cert.SLstm.Kernel

end
-- ==== Proof.lean ====
/-
  The certificate: one step of an sLSTM cell computed tile by tile on a grid, against the same step computed with the four
  gates fused into one pair of matrix products.

  Both idealized programs are read at the extended reals. The kernel's result array is the new hidden state `hidden` of
  its sixteen arguments (KernelArray.lean, over KernelTile.lean: each grid point writes its 512 × 256 tile of `hidden`, and
  the 64 tiles fill the array). The reference's result is the same function of its arguments (RefSpec.lean: a column band
  of the fused pre-activation matrix is one gate's pre-activation, and `1 / (1 + exp (−a))` is the logistic function by
  definition). No law beyond these identifications is used — the sums have the same terms in the same order on both
  sides — so the precondition that the inputs are finite is never opened. The three frames are the generated ones (the
  reference's is its generated run with the result dropped), and the idealization rewrote nothing, so `preserves` is `True`.
-/
import proofs.«109156_j54047868453103_2_alg».proof.Defs
import proofs.«109156_j54047868453103_2_alg».proof.Proof.Gen.Kernel
import proofs.«109156_j54047868453103_2_alg».proof.Proof.Gen.Kernel.Frame
import proofs.«109156_j54047868453103_2_alg».proof.Proof.Gen.KernelIdeal
import proofs.«109156_j54047868453103_2_alg».proof.Proof.Gen.KernelIdeal.Frame
import proofs.«109156_j54047868453103_2_alg».proof.Proof.Gen.KernelIdeal.Value
import proofs.«109156_j54047868453103_2_alg».proof.Proof.Gen.ReferenceIdeal
import proofs.«109156_j54047868453103_2_alg».proof.Proof.Gen.ReferenceIdeal.Run
import proofs.«109156_j54047868453103_2_alg».proof.Proof.Gen.ReferenceIdeal.Read
import proofs.«109156_j54047868453103_2_alg».proof.Proof.Gen.Pre_finite_inputs
import proofs.«109156_j54047868453103_2_alg».proof.Proof.RefSpec
import proofs.«109156_j54047868453103_2_alg».proof.Proof.KernelArray
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the sixteen arguments both programs end with the new hidden state of those arguments in
    their result arrays. -/
theorem algebraic : Cert.algebraic_KernelIdeal_ReferenceIdeal := by
  intro m ρ m' ρ' _ hagree
  refine ⟨fun c => Cert.SLstm.Kernel.result m c, Cert.SLstm.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15⟩ := hagree c
  rw [Cert.ReferenceIdeal.Read.val_main_v30_eq, Cert.SLstm.Ref.reference_eq, a0, a1, a2, a3, a4, a5, a6, a7, a8, a9, a10, a11, a12, a13, a14, a15]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
